-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S5000x64 .f32
  ∧ IdealRules.sign_bit.Statement Cert.KernelIdeal.S5000x64 .f32
  ∧ IdealRules.sign_bit.Statement Cert.KernelIdeal.S5000x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3000000 : Shape := ⟨1, ![3000000]⟩
abbrev S3x150000x64 : Shape := ⟨3, ![3, 150000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3000000 : S_.BroadcastsInDim S3000000 (![] : Fin 0 → Fin S3000000.rank)
  reducesTo_S3000000_S_d0 : S3000000.ReducesTo [0] S_
  bcast_S_S3x150000x64 : S_.BroadcastsInDim S3x150000x64 (![] : Fin 0 → Fin S3x150000x64.rank)
  reducesTo_S3x150000x64_S_d0_1_2 : S3x150000x64.ReducesTo [0, 1, 2] S_

variable [Facts]

def fn_part1 {F : FTy → Type} [FloatOps F] (main_v13 : IVec S_ 1) (main_v16 : IVec S3x150000x64 1) : IVec S_ 1 :=
  let main_c_5 : IVec S_ 1 := constantI S_ 1 1#1
  let main_v17 : IVec S_ 1 := (fun x v => Host.reduce IntOp.andi x v reducesTo_S3x150000x64_S_d0_1_2 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : FVec F S3000000 .f32) (main_arg3 : FVec F S3x150000x64 .f32) (main_arg4 : IVec S3000000 32) (main_arg5 : IVec S3000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3000000 .f32 := Host.absf main_arg2
  let main_cst_2 : FVec F S_ .f32 := constant S_ .f32 0x7F800000#32
  let main_v10 : FVec F S3000000 .f32 := broadcastInDim S3000000 ![] bcast_S_S3000000 main_cst_2
  let main_v11 : IVec S3000000 1 := cmpf .olt main_v9 main_v10
  let main_c_3 : IVec S_ 1 := constantI S_ 1 1#1
  let main_v12 : IVec S_ 1 := (fun x v => Host.reduce IntOp.andi x v reducesTo_S3000000_S_d0 h_S_) main_v11 main_c_3
  let main_v13 : IVec S_ 1 := andi main_v8 main_v12
  let main_v14 : FVec F S3x150000x64 .f32 := Host.absf main_arg3
  let main_cst_4 : FVec F S_ .f32 := constant S_ .f32 0x7F800000#32
  let main_v15 : FVec F S3x150000x64 .f32 := broadcastInDim S3x150000x64 ![] bcast_S_S3x150000x64 main_cst_4
  let main_v16 : IVec S3x150000x64 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S3000000 : Shape := ⟨1, ![3000000]⟩
abbrev S3x150000x64 : Shape := ⟨3, ![3, 150000, 64]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S1x150000x64 : Shape := ⟨3, ![1, 150000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 72
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3000000, .f32⟩
  | .hbm, ⟨3, _⟩ => ⟨S3x150000x64, .f32⟩
  | .hbm, ⟨4, _⟩ => ⟨S3000000, .i32⟩
  | .hbm, ⟨5, _⟩ => ⟨S3000000, .i32⟩
  | .hbm, ⟨6, _⟩ => ⟨S150000x64, .f32⟩
  | .hbm, ⟨7, _⟩ => ⟨S3000000x1, .f32⟩
  | .hbm, ⟨8, _⟩ => ⟨S_, .i32⟩
  | .hbm, ⟨9, _⟩ => ⟨S3000000, .i32⟩
  | .hbm, ⟨10, _⟩ => ⟨S3000000, .i1⟩
  | .hbm, ⟨11, _⟩ => ⟨S_, .i32⟩
  | .hbm, ⟨12, _⟩ => ⟨S3000000, .i32⟩
  | .hbm, ⟨13, _⟩ => ⟨S3000000, .i32⟩
  | .hbm, ⟨14, _⟩ => ⟨S3000000, .i32⟩
  | .hbm, ⟨15, _⟩ => ⟨S3000000x1, .i32⟩
  | .hbm, ⟨16, _⟩ => ⟨S3000000x64, .f32⟩
  | .hbm, ⟨17, _⟩ => ⟨S3000000x64, .f32⟩
  | .hbm, ⟨18, _⟩ => ⟨S3000000x64, .f32⟩
  | .hbm, ⟨19, _⟩ => ⟨S_, .f32⟩
  | .hbm, ⟨20, _⟩ => ⟨S150000x64, .f32⟩
  | .hbm, ⟨21, _⟩ => ⟨S3000000x1, .i32⟩
  | .hbm, ⟨22, _⟩ => ⟨S150000x64, .f32⟩
  | .hbm, ⟨23, _⟩ => ⟨S1x150000x64, .f32⟩
  | .hbm, ⟨24, _⟩ => ⟨S150000x64, .f32⟩
  | .hbm, ⟨25, _⟩ => ⟨S150000x64, .f32⟩
  | .hbm, ⟨26, _⟩ => ⟨S150000x64, .f32⟩
  | .hbm, ⟨27, _⟩ => ⟨S3000000x1, .f32⟩
  | .hbm, ⟨28, _⟩ => ⟨S_, .i32⟩
  | .hbm, ⟨29, _⟩ => ⟨S3000000, .i32⟩
  | .hbm, ⟨30, _⟩ => ⟨S3000000, .i1⟩
  | .hbm, ⟨31, _⟩ => ⟨S_, .i32⟩
  | .hbm, ⟨32, _⟩ => ⟨S3000000, .i32⟩
  | .hbm, ⟨33, _⟩ => ⟨S3000000, .i32⟩
  | .hbm, ⟨34, _⟩ => ⟨S3000000, .i32⟩
  | .hbm, ⟨35, _⟩ => ⟨S3000000x1, .i32⟩
  | .hbm, ⟨36, _⟩ => ⟨S3000000x64, .f32⟩
  | .hbm, ⟨37, _⟩ => ⟨S3000000x64, .f32⟩
  | .hbm, ⟨38, _⟩ => ⟨S3000000x64, .f32⟩
  | .hbm, ⟨39, _⟩ => ⟨S_, .f32⟩
  | .hbm, ⟨40, _⟩ => ⟨S150000x64, .f32⟩
  | .hbm, ⟨41, _⟩ => ⟨S3000000x1, .i32⟩
  | .hbm, ⟨42, _⟩ => ⟨S150000x64, .f32⟩
  | .hbm, ⟨43, _⟩ => ⟨S1x150000x64, .f32⟩
  | .hbm, ⟨44, _⟩ => ⟨S150000x64, .f32⟩
  | .hbm, ⟨45, _⟩ => ⟨S150000x64, .f32⟩
  | .hbm, ⟨46, _⟩ => ⟨S150000x64, .f32⟩
  | .hbm, ⟨47, _⟩ => ⟨S3000000x1, .f32⟩
  | .hbm, ⟨48, _⟩ => ⟨S_, .i32⟩
  | .hbm, ⟨49, _⟩ => ⟨S3000000, .i32⟩
  | .hbm, ⟨50, _⟩ => ⟨S3000000, .i1⟩
  | .hbm, ⟨51, _⟩ => ⟨S_, .i32⟩
  | .hbm, ⟨52, _⟩ => ⟨S3000000, .i32⟩
  | .hbm, ⟨53, _⟩ => ⟨S3000000, .i32⟩
  | .hbm, ⟨54, _⟩ => ⟨S3000000, .i32⟩
  | .hbm, ⟨55, _⟩ => ⟨S3000000x1, .i32⟩
  | .hbm, ⟨56, _⟩ => ⟨S3000000x64, .f32⟩
  | .hbm, ⟨57, _⟩ => ⟨S3000000x64, .f32⟩
  | .hbm, ⟨58, _⟩ => ⟨S3000000x64, .f32⟩
  | .hbm, ⟨59, _⟩ => ⟨S_, .f32⟩
  | .hbm, ⟨60, _⟩ => ⟨S150000x64, .f32⟩
  | .hbm, ⟨61, _⟩ => ⟨S3000000x1, .i32⟩
  | .hbm, ⟨62, _⟩ => ⟨S150000x64, .f32⟩
  | .hbm, ⟨63, _⟩ => ⟨S1x150000x64, .f32⟩
  | .hbm, ⟨64, _⟩ => ⟨S150000x64, .f32⟩
  | .hbm, ⟨65, _⟩ => ⟨S150000x64, .f32⟩
  | .hbm, ⟨66, _⟩ => ⟨S150000x64, .f32⟩
  | .hbm, ⟨67, _⟩ => ⟨S_, .f32⟩
  | .hbm, ⟨68, _⟩ => ⟨S150000x64, .f32⟩
  | .hbm, ⟨69, _⟩ => ⟨S150000x64, .f32⟩
  | .hbm, ⟨70, _⟩ => ⟨S100000x64, .f32⟩
  | .hbm, ⟨71, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [BitOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S3x150000x64_S1x150000x64_0_0_0 : S3x150000x64.Slices ![0, 0, 0] S1x150000x64
  shapeCasts_S1x150000x64_S150000x64 : S1x150000x64.ShapeCasts S150000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  slices_S3x150000x64_S1x150000x64_1_0_0 : S3x150000x64.Slices ![1, 0, 0] S1x150000x64
  slices_S3x150000x64_S1x150000x64_2_0_0 : S3x150000x64.Slices ![2, 0, 0] S1x150000x64
  slices_S150000x64_S100000x64_0_0 : S150000x64.Slices ![0, 0] S100000x64
  slices_S150000x64_S50000x64_100000_0 : S150000x64.Slices ![100000, 0] S50000x64
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S150000x64.size a
  hwx0_2 : ∀ i : grid0.Coords, EltTy.bits .f32 = 32 ∨ (Rect.block (s := S150000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S150000x64.size a
  hwx0_3 : ∀ i : grid0.Coords, EltTy.bits .f32 = 32 ∨ (Rect.block (s := S150000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S150000x64.size a
  hwx0_4 : ∀ i : grid0.Coords, EltTy.bits .f32 = 32 ∨ (Rect.block (s := S150000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S150000x64.size a
  hwx1_1 : ∀ i : grid1.Coords, EltTy.bits .f32 = 32 ∨ (Rect.block (s := S150000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S150000x64.size a
  hwx1_2 : ∀ i : grid1.Coords, EltTy.bits .f32 = 32 ∨ (Rect.block (s := S150000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S150000x64.size a
  hwx1_3 : ∀ i : grid1.Coords, EltTy.bits .f32 = 32 ∨ (Rect.block (s := S150000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S150000x64.size a
  hwx1_4 : ∀ i : grid1.Coords, EltTy.bits .f32 = 32 ∨ (Rect.block (s := S150000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S150000x64.size a
  hwx2_1 : ∀ i : grid2.Coords, EltTy.bits .f32 = 32 ∨ (Rect.block (s := S150000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S150000x64.size a
  hwx2_2 : ∀ i : grid2.Coords, EltTy.bits .f32 = 32 ∨ (Rect.block (s := S150000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S150000x64.size a
  hwx2_3 : ∀ i : grid2.Coords, EltTy.bits .f32 = 32 ∨ (Rect.block (s := S150000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S150000x64.size a
  hwx2_4 : ∀ i : grid2.Coords, EltTy.bits .f32 = 32 ∨ (Rect.block (s := S150000x64) S5000x64.size (cc2_transform_4 i) (hinb2_4 i)).WholeWords (EltTy.packing .f32)

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3000000 : Shape := ⟨1, ![3000000]⟩
abbrev S3x150000x64 : Shape := ⟨3, ![3, 150000, 64]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S1x150000x64 : Shape := ⟨3, ![1, 150000, 64]⟩
abbrev S150000 : Shape := ⟨1, ![150000]⟩
abbrev S150000x1 : Shape := ⟨2, ![150000, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3000000, .f32⟩
  | .hbm, ⟨3, _⟩ => ⟨S3x150000x64, .f32⟩
  | .hbm, ⟨4, _⟩ => ⟨S3000000, .i32⟩
  | .hbm, ⟨5, _⟩ => ⟨S3000000, .i32⟩
  | .hbm, ⟨6, _⟩ => ⟨S150000x64, .f32⟩
  | .hbm, ⟨7, _⟩ => ⟨S3000000x1, .f32⟩
  | .hbm, ⟨8, _⟩ => ⟨S_, .i32⟩
  | .hbm, ⟨9, _⟩ => ⟨S3000000, .i32⟩
  | .hbm, ⟨10, _⟩ => ⟨S3000000, .i1⟩
  | .hbm, ⟨11, _⟩ => ⟨S_, .i32⟩
  | .hbm, ⟨12, _⟩ => ⟨S3000000, .i32⟩
  | .hbm, ⟨13, _⟩ => ⟨S3000000, .i32⟩
  | .hbm, ⟨14, _⟩ => ⟨S3000000, .i32⟩
  | .hbm, ⟨15, _⟩ => ⟨S3000000x1, .i32⟩
  | .hbm, ⟨16, _⟩ => ⟨S3000000x64, .f32⟩
  | .hbm, ⟨17, _⟩ => ⟨S3000000x64, .f32⟩
  | .hbm, ⟨18, _⟩ => ⟨S3000000x64, .f32⟩
  | .hbm, ⟨19, _⟩ => ⟨S_, .f32⟩
  | .hbm, ⟨20, _⟩ => ⟨S150000x64, .f32⟩
  | .hbm, ⟨21, _⟩ => ⟨S3000000x1, .i32⟩
  | .hbm, ⟨22, _⟩ => ⟨S150000x64, .f32⟩
  | .hbm, ⟨23, _⟩ => ⟨S150000x64, .f32⟩
  | .hbm, ⟨24, _⟩ => ⟨S1x150000x64, .f32⟩
  | .hbm, ⟨25, _⟩ => ⟨S150000x64, .f32⟩
  | .hbm, ⟨26, _⟩ => ⟨S150000x64, .f32⟩
  | .hbm, ⟨27, _⟩ => ⟨S_, .f32⟩
  | .hbm, ⟨28, _⟩ => ⟨S150000, .f32⟩
  | .hbm, ⟨29, _⟩ => ⟨S150000x1, .f32⟩
  | .hbm, ⟨30, _⟩ => ⟨S150000x1, .f32⟩
  | .hbm, ⟨31, _⟩ => ⟨S_, .f32⟩
  | .hbm, ⟨32, _⟩ => ⟨S150000x1, .f32⟩
  | .hbm, ⟨33, _⟩ => ⟨S150000x1, .f32⟩
  | .hbm, ⟨34, _⟩ => ⟨S150000x64, .f32⟩
  | .hbm, ⟨35, _⟩ => ⟨S150000x64, .f32⟩
  | .hbm, ⟨36, _⟩ => ⟨S150000x64, .f32⟩
  | .hbm, ⟨37, _⟩ => ⟨S_, .f32⟩
  | .hbm, ⟨38, _⟩ => ⟨S150000x64, .f32⟩
  | .hbm, ⟨39, _⟩ => ⟨S150000x64, .f32⟩
  | .hbm, ⟨40, _⟩ => ⟨S150000x64, .f32⟩
  | .hbm, ⟨41, _⟩ => ⟨S150000x64, .f32⟩
  | .hbm, ⟨42, _⟩ => ⟨S3000000x1, .f32⟩
  | .hbm, ⟨43, _⟩ => ⟨S_, .i32⟩
  | .hbm, ⟨44, _⟩ => ⟨S3000000, .i32⟩
  | .hbm, ⟨45, _⟩ => ⟨S3000000, .i1⟩
  | .hbm, ⟨46, _⟩ => ⟨S_, .i32⟩
  | .hbm, ⟨47, _⟩ => ⟨S3000000, .i32⟩
  | .hbm, ⟨48, _⟩ => ⟨S3000000, .i32⟩
  | .hbm, ⟨49, _⟩ => ⟨S3000000, .i32⟩
  | .hbm, ⟨50, _⟩ => ⟨S3000000x1, .i32⟩
  | .hbm, ⟨51, _⟩ => ⟨S3000000x64, .f32⟩
  | .hbm, ⟨52, _⟩ => ⟨S3000000x64, .f32⟩
  | .hbm, ⟨53, _⟩ => ⟨S3000000x64, .f32⟩
  | .hbm, ⟨54, _⟩ => ⟨S_, .f32⟩
  | .hbm, ⟨55, _⟩ => ⟨S150000x64, .f32⟩
  | .hbm, ⟨56, _⟩ => ⟨S3000000x1, .i32⟩
  | .hbm, ⟨57, _⟩ => ⟨S150000x64, .f32⟩
  | .hbm, ⟨58, _⟩ => ⟨S150000x64, .f32⟩
  | .hbm, ⟨59, _⟩ => ⟨S1x150000x64, .f32⟩
  | .hbm, ⟨60, _⟩ => ⟨S150000x64, .f32⟩
  | .hbm, ⟨61, _⟩ => ⟨S150000x64, .f32⟩
  | .hbm, ⟨62, _⟩ => ⟨S_, .f32⟩
  | .hbm, ⟨63, _⟩ => ⟨S150000, .f32⟩
  | .hbm, ⟨64, _⟩ => ⟨S150000x1, .f32⟩
  | .hbm, ⟨65, _⟩ => ⟨S150000x1, .f32⟩
  | .hbm, ⟨66, _⟩ => ⟨S_, .f32⟩
  | .hbm, ⟨67, _⟩ => ⟨S150000x1, .f32⟩
  | .hbm, ⟨68, _⟩ => ⟨S150000x1, .f32⟩
  | .hbm, ⟨69, _⟩ => ⟨S150000x64, .f32⟩
  | .hbm, ⟨70, _⟩ => ⟨S150000x64, .f32⟩
  | .hbm, ⟨71, _⟩ => ⟨S150000x64, .f32⟩
  | .hbm, ⟨72, _⟩ => ⟨S_, .f32⟩
  | .hbm, ⟨73, _⟩ => ⟨S150000x64, .f32⟩
  | .hbm, ⟨74, _⟩ => ⟨S150000x64, .f32⟩
  | .hbm, ⟨75, _⟩ => ⟨S150000x64, .f32⟩
  | .hbm, ⟨76, _⟩ => ⟨S150000x64, .f32⟩
  | .hbm, ⟨77, _⟩ => ⟨S3000000x1, .f32⟩
  | .hbm, ⟨78, _⟩ => ⟨S_, .i32⟩
  | .hbm, ⟨79, _⟩ => ⟨S3000000, .i32⟩
  | .hbm, ⟨80, _⟩ => ⟨S3000000, .i1⟩
  | .hbm, ⟨81, _⟩ => ⟨S_, .i32⟩
  | .hbm, ⟨82, _⟩ => ⟨S3000000, .i32⟩
  | .hbm, ⟨83, _⟩ => ⟨S3000000, .i32⟩
  | .hbm, ⟨84, _⟩ => ⟨S3000000, .i32⟩
  | .hbm, ⟨85, _⟩ => ⟨S3000000x1, .i32⟩
  | .hbm, ⟨86, _⟩ => ⟨S3000000x64, .f32⟩
  | .hbm, ⟨87, _⟩ => ⟨S3000000x64, .f32⟩
  | .hbm, ⟨88, _⟩ => ⟨S3000000x64, .f32⟩
  | .hbm, ⟨89, _⟩ => ⟨S_, .f32⟩
  | .hbm, ⟨90, _⟩ => ⟨S150000x64, .f32⟩
  | .hbm, ⟨91, _⟩ => ⟨S3000000x1, .i32⟩
  | .hbm, ⟨92, _⟩ => ⟨S150000x64, .f32⟩
  | .hbm, ⟨93, _⟩ => ⟨S150000x64, .f32⟩
  | .hbm, ⟨94, _⟩ => ⟨S1x150000x64, .f32⟩
  | .hbm, ⟨95, _⟩ => ⟨S150000x64, .f32⟩
  | .hbm, ⟨96, _⟩ => ⟨S150000x64, .f32⟩
  | .hbm, ⟨97, _⟩ => ⟨S_, .f32⟩
  | .hbm, ⟨98, _⟩ => ⟨S150000, .f32⟩
  | .hbm, ⟨99, _⟩ => ⟨S150000x1, .f32⟩
  | .hbm, ⟨100, _⟩ => ⟨S150000x1, .f32⟩
  | .hbm, ⟨101, _⟩ => ⟨S_, .f32⟩
  | .hbm, ⟨102, _⟩ => ⟨S150000x1, .f32⟩
  | .hbm, ⟨103, _⟩ => ⟨S150000x1, .f32⟩
  | .hbm, ⟨104, _⟩ => ⟨S150000x64, .f32⟩
  | .hbm, ⟨105, _⟩ => ⟨S150000x64, .f32⟩
  | .hbm, ⟨106, _⟩ => ⟨S150000x64, .f32⟩
  | .hbm, ⟨107, _⟩ => ⟨S_, .f32⟩
  | .hbm, ⟨108, _⟩ => ⟨S150000x64, .f32⟩
  | .hbm, ⟨109, _⟩ => ⟨S150000x64, .f32⟩
  | .hbm, ⟨110, _⟩ => ⟨S150000x64, .f32⟩
  | .hbm, ⟨111, _⟩ => ⟨S150000x64, .f32⟩
  | .hbm, ⟨112, _⟩ => ⟨S_, .f32⟩
  | .hbm, ⟨113, _⟩ => ⟨S150000x64, .f32⟩
  | .hbm, ⟨114, _⟩ => ⟨S150000x64, .f32⟩
  | .hbm, ⟨115, _⟩ => ⟨S100000x64, .f32⟩
  | .hbm, ⟨116, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_10 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_16 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S3x150000x64_S1x150000x64_0_0_0 : S3x150000x64.Slices ![0, 0, 0] S1x150000x64
  shapeCasts_S1x150000x64_S150000x64 : S1x150000x64.ShapeCasts S150000x64
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x150000x64_S1x150000x64_1_0_0 : S3x150000x64.Slices ![1, 0, 0] S1x150000x64
  slices_S3x150000x64_S1x150000x64_2_0_0 : S3x150000x64.Slices ![2, 0, 0] S1x150000x64
  slices_S150000x64_S100000x64_0_0 : S150000x64.Slices ![0, 0] S100000x64
  slices_S150000x64_S50000x64_100000_0 : S150000x64.Slices ![100000, 0] S50000x64
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

class Facts : Prop extends Facts₀ where

variable [Facts]
-- ==== Proof.KernelRun.lean ====
/- The idealized kernel's run, with the final memory NAMED.

   @main is seven segments: four stretches of host operations around three launches of the update kernel. The
   frame module already folds the buffer contents through those segments: `W7 m ρ c` is what core `c`'s buffers hold
   after the last stretch. Here the same run is stated with a post that keeps that valuation for the two results,
   beside the unchanged arguments: every weakly fair execution terminates, and each result buffer ends at `W7`. -/
import proofs.«135707_j27994596835373_1_alg».proof.Proof.PatchedKernelIdealFrame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element yields the pipelines' own at their staging cells, and nothing per core. -/
theorem launch_ghost :
    (ownU (initOf (Pipeline.cells cfgs cellOf_inj) (Pipeline.launchToks cfgs cellOf_inj)) : sProp 𝕄)
      ⊢ |={Set.univ}=> iprop(BI.own (emb₁ (initOf (Pipeline.cells (Pipeline.pin (pcfgs (F := F)) adm) cellOf_inj)
          (Pipeline.launchToks (Pipeline.pin (pcfgs (F := F)) adm) cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- Every weakly fair execution of @main terminates, nothing faulting, with every unscoped buffer of every core at
    the last boundary's contents `W7`: in particular the two results, and the arguments as launched. -/
theorem run_named : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunAll

end
-- ==== Proof.LibKeepdims.lean ====
/-
  Layout operations of small ranks read at an index given by its coordinates, for any element type: a cast that drops
  two leading unit axes, the cast of a vector to a one-column matrix, and the broadcast of a one-column matrix along its
  rows.  Together the last two are what a row reduction kept as a column (a sum or a maximum over the last axis,
  then broadcast back over that axis) reads as: at (p, c) the reduced vector's entry p.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`: both positions in
    row-major order are `i * b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` vector cast to the one-column matrix `[a, 1]` reads, at `(p, u)`, the vector's entry `p`: the column
    coordinate `u` can only be `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row reduction kept as a column and broadcast back along the rows: the vector `x` of per-row results, cast to
    `[a, 1]` and broadcast to `[a, b]`, reads at `(p, c)` as `x` at `p`. -/
theorem keepdims_col_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Cert.LibKeepdims

end
-- ==== Proof.Step.lean ====
/- One entry of the update, and the kernel body read at an entry.

   For a row of the table, with `ss` the sum of the squares of that row of the noise, the update of the entry `e`
   against the noise entry `n` is   e + sign e · (n / max (√ss) ε) · δ   on the extended reals, where ε and δ are the
   binary32 numbers nearest 10⁻¹² and 1/10 (the same two words in the kernel and in the reference, so they are never
   evaluated). The kernel body computes this for a block of 5000 rows at a time: its first store is the updated
   block, its second the running sum plus the updated block. -/
import proofs.«135707_j27994596835373_1_alg».proof.Proof.Gen.KernelIdeal.Skeleton
import proofs.«135707_j27994596835373_1_alg».proof.Proof.LibKeepdims
import Idealize.ShloMosaic.Lib.ValueIdx
import Idealize.ShloMosaic.Lib.Pipeline.Value
import Idealize.ShloMosaic.PureOps.Ideal.Laws

noncomputable section

namespace Cert.Upd

open Idealize.ShloMosaic Idealize.ShloMosaic.ValueIdx

/-- The updated entry: `e + sign e · (n / max (√ss) ε) · δ`. -/
def step (e n ss : EReal) : EReal :=
  e + Ideal.sign e * Ideal.div n (max (Ideal.sqrt ss) (Ideal.ofBits .f32 0x2B8CBCCC#32)) * Ideal.ofBits .f32 0x3DCCCCCD#32

end Cert.Upd

namespace Cert.KernelIdeal.Body

open Idealize.ShloMosaic Idealize.ShloMosaic.ValueIdx Cert.KernelIdeal Cert.KernelIdeal.Gen Cert.Upd

/-- The lane sum of a [5000, 64] block, at row `p`: the sum over the 64 columns. -/
theorem rowSum_apply (v : FVec Ideal S5000x64 .f32) (hφ : FKind.Formats FTy.f32)
    (hacc : (0x00000000#32 : BitVec 32) = FKind.add.neutral .f32 hφ) (p : Fin 5000) :
    multiReduction .add [1] S5000 v 0x00000000#32 reduces_S5000x64_S5000 hφ hacc (ix1 p) = ∑ k : Fin 64, v (ix2 p k) := by
  rw [Ideal.multiReduction_add_single]
  refine Finset.sum_congr rfl fun k _ => congrArg v ?_
  funext a
  match a with
  | ⟨0, _⟩ => rfl
  | ⟨1, _⟩ => rfl

/-- The norm column of a block broadcast back over the columns: at `(p, q)` it is `max (√(Σₖ x(p,k)²)) ε`. -/
theorem norm_apply (x1 : FVec Ideal S5000x64 .f32) (hφ : FKind.Formats FTy.f32)
    (hacc : (0x00000000#32 : BitVec 32) = FKind.add.neutral .f32 hφ) (p : Fin 5000) (q : Fin 64) :
    broadcastTo S5000x64
        (maximumf (sqrt (shapeCast S5000x1 (multiReduction .add [1] S5000 (mulf x1 x1) 0x00000000#32 reduces_S5000x64_S5000 hφ hacc)
            shapeCasts_S5000_S5000x1)) (broadcast S5000x1 (FloatOps.ofBits (F := Ideal) .f32 0x2B8CBCCC#32)))
        broadcasts_S5000x1_S5000x64 (ix2 p q)
      = max (Ideal.sqrt (∑ k : Fin 64, x1 (ix2 p k) * x1 (ix2 p k))) (Ideal.ofBits .f32 0x2B8CBCCC#32) := by
  rw [Cert.LibKeepdims.broadcastTo_a1_ab_apply]
  show max (Ideal.sqrt (shapeCast S5000x1 _ shapeCasts_S5000_S5000x1 (ix2 p (0 : Fin 1)))) _ = _
  rw [Cert.LibKeepdims.shapeCast_a_a1_apply, rowSum_apply]
  rfl

/-- The first store of the body, at entry `(p, q)` of the block: the update of the entry against its row. -/
theorem pay1_apply (x0 x1 : Vec Ideal S5000x64 .f32) (p : Fin 5000) (q : Fin 64) :
    k0_pay1 (F := Ideal) x0 x1 (ix2 p q) = step (x0 (ix2 p q)) (x1 (ix2 p q)) (∑ k : Fin 64, x1 (ix2 p k) * x1 (ix2 p k)) := by
  unfold k0_pay1 step
  simp only [shapeCast_self]
  exact congrArg₂ (fun s d => x0 (ix2 p q) + s * Ideal.div (x1 (ix2 p q)) d * Ideal.ofBits .f32 0x3DCCCCCD#32)
    (Ideal.jnp_sign_eq_sign_f32 (x0 (ix2 p q))) (norm_apply x1 _ _ p q)

/-- The second store: the running sum's entry plus the updated entry. -/
theorem pay2_apply (x0 x1 x2 : Vec Ideal S5000x64 .f32) (p : Fin 5000) (q : Fin 64) :
    k0_pay2 (F := Ideal) x0 x1 x2 (ix2 p q)
      = x2 (ix2 p q) + step (x0 (ix2 p q)) (x1 (ix2 p q)) (∑ k : Fin 64, x1 (ix2 p k) * x1 (ix2 p k)) := by
  unfold k0_pay2
  simp only [shapeCast_self]
  exact congrArg (x2 (ix2 p q) + ·) (pay1_apply x0 x1 p q)

end Cert.KernelIdeal.Body

end
-- ==== Proof.HostUpd.lean ====
/- The reference's operations as functions of whole arrays, and its update read at an entry.

   One round of the reference is: the sparse product `spmm` (gather the rows the column indices name, scale by the
   values, scatter-add into the rows the row indices name), then the update of the whole [150000, 64] table against
   one slice of the noise: `updEgo e n`. The running sum adds each round's table. At the entry (r, q) the update is
   `Upd.step` of the entry, the noise entry, and the sum of the squares of row r of the noise. -/
import proofs.«135707_j27994596835373_1_alg».proof.Proof.Gen.ReferenceIdeal
import proofs.«135707_j27994596835373_1_alg».proof.Proof.Step
import Idealize.ShloMosaic.Lib.ValueIdx
import Idealize.ShloMosaic.Lib.Pipeline.Value
import Idealize.ShloMosaic.PureOps.Ideal.Laws

noncomputable section

namespace Cert.Host

open Idealize.ShloMosaic Idealize.ShloMosaic.ValueIdx Cert.ReferenceIdeal Cert.ReferenceIdeal.Facts₀ Cert.Upd

abbrev Tab := (⟨S150000x64, .f32⟩ : BufTy).Contents (Elt Ideal)
abbrev Vals := (⟨S3000000, .f32⟩ : BufTy).Contents (Elt Ideal)
abbrev Ixs := (⟨S3000000, .i32⟩ : BufTy).Contents (Elt Ideal)
abbrev Noise := (⟨S3x150000x64, .f32⟩ : BufTy).Contents (Elt Ideal)

/-- The user rows above the item rows: the [150000, 64] table both programs start from. -/
def table (a0 : (⟨S100000x64, .f32⟩ : BufTy).Contents (Elt Ideal)) (a1 : (⟨S50000x64, .f32⟩ : BufTy).Contents (Elt Ideal)) : Tab :=
  concatenate S150000x64 0 [⟨S100000x64, a0⟩, ⟨S50000x64, a1⟩] concatenates_S100000x64_S50000x64_S150000x64_d0

/-- The sparse product: row `rows j` of the result gathers `vals j` times row `cols j` of `x` (a negative column
    index counted from the end), summed over the entries `j`. Both programs compute it with these host operations. -/
def spmm (vals : Vals) (rows cols : Ixs) (x : Tab) : Tab :=
  Host.scatterAdd scatter_S150000x64_S3000000x1_S3000000x64_1_0_0_1
    (broadcastInDim S150000x64 ![] bcast_S_S150000x64 (constant (F := Ideal) S_ .f32 0x00000000#32))
    (broadcastInDim S3000000x1 ![0] bcast_S3000000_S3000000x1_0 rows)
    (mulf (broadcastInDim S3000000x64 ![0, 1] bcast_S3000000x1_S3000000x64_0_1 (broadcastInDim S3000000x1 ![0] bcast_S3000000_S3000000x1_0 vals))
      (Host.gather gather_S150000x64_S3000000x1_S3000000x64_1_0_n_n_0_1_164 x
        (broadcastInDim S3000000x1 ![0] bcast_S3000000_S3000000x1_0
          (select (cmpi .slt cols (broadcastInDim S3000000 ![] bcast_S_S3000000 (constantI S_ 32 0#32)))
            (addi cols (broadcastInDim S3000000 ![] bcast_S_S3000000 (constantI S_ 32 150000#32))) cols))))

/-- The three slices of the noise, one per round. -/
def noise0 (z : Noise) : Tab := shapeCast _ (extractStridedSlice S1x150000x64 ![0, 0, 0] z slices_S3x150000x64_S1x150000x64_0_0_0) shapeCasts_S1x150000x64_S150000x64
def noise1 (z : Noise) : Tab := shapeCast _ (extractStridedSlice S1x150000x64 ![1, 0, 0] z slices_S3x150000x64_S1x150000x64_1_0_0) shapeCasts_S1x150000x64_S150000x64
def noise2 (z : Noise) : Tab := shapeCast _ (extractStridedSlice S1x150000x64 ![2, 0, 0] z slices_S3x150000x64_S1x150000x64_2_0_0) shapeCasts_S1x150000x64_S150000x64

/-- Each row's norm, not below ε, spread back over the row. -/
def rowNorm (n : Tab) : Tab :=
  broadcastInDim S150000x64 ![0, 1] bcast_S150000x1_S150000x64_0_1
    (maximumf (Host.sqrt (broadcastInDim S150000x1 ![0] bcast_S150000_S150000x1_0
        (Host.reduceAdd (mulf n n) (constant (F := Ideal) S_ .f32 0x00000000#32) reducesTo_S150000x64_S150000_d1 h_S_)))
      (broadcastInDim S150000x1 ![] bcast_S_S150000x1 (constant (F := Ideal) S_ .f32 0x2B8CBCCC#32)))

/-- The update of the whole table `e` against the noise slice `n`. -/
def updEgo (e n : Tab) : Tab :=
  addf e (mulf (mulf (Host.sign e) (Host.divf n (rowNorm n)))
    (broadcastInDim S150000x64 ![] bcast_S_S150000x64 (constant (F := Ideal) S_ .f32 0x3DCCCCCD#32)))

/-- The mean over the four tables, and the two results: its user rows and its item rows. -/
def mean4 (acc : Tab) : Tab :=
  Host.divf acc (broadcastInDim S150000x64 ![] bcast_S_S150000x64 (constant (F := Ideal) S_ .f32 0x40800000#32))
def users (acc : Tab) : (⟨S100000x64, .f32⟩ : BufTy).Contents (Elt Ideal) :=
  extractStridedSlice S100000x64 ![0, 0] (mean4 acc) slices_S150000x64_S100000x64_0_0
def items (acc : Tab) : (⟨S50000x64, .f32⟩ : BufTy).Contents (Elt Ideal) :=
  extractStridedSlice S50000x64 ![100000, 0] (mean4 acc) slices_S150000x64_S50000x64_100000_0

/-- The running sum's step: the entrywise sum of two tables. -/
def plus (s g : Tab) : Tab := fun i => s i + g i
theorem plus_apply (s g : Tab) (i : S150000x64.Idx) : plus s g i = s i + g i := rfl

/-! ## The three rounds

    From the launch arrays: the table, then three times the sparse product followed by the update against the
    round's noise slice; the running sum is the table plus the three updated tables. -/

section Rounds

variable (a0 : (⟨S100000x64, .f32⟩ : BufTy).Contents (Elt Ideal)) (a1 : (⟨S50000x64, .f32⟩ : BufTy).Contents (Elt Ideal))
  (a2 : Vals) (a3 : Noise) (a4 a5 : Ixs)

def ego1 : Tab := updEgo (spmm a2 a4 a5 (table a0 a1)) (noise0 a3)
def ego2 : Tab := updEgo (spmm a2 a4 a5 (ego1 a0 a1 a2 a3 a4 a5)) (noise1 a3)
def ego3 : Tab := updEgo (spmm a2 a4 a5 (ego2 a0 a1 a2 a3 a4 a5)) (noise2 a3)
def sum1 : Tab := plus (table a0 a1) (ego1 a0 a1 a2 a3 a4 a5)
def sum2 : Tab := plus (sum1 a0 a1 a2 a3 a4 a5) (ego2 a0 a1 a2 a3 a4 a5)
def sum3 : Tab := plus (sum2 a0 a1 a2 a3 a4 a5) (ego3 a0 a1 a2 a3 a4 a5)

end Rounds

/-! ## The update at an entry -/

theorem bcast_col (y : S150000x1.Idx → EReal) (r : Fin 150000) (q : Fin 64) :
    broadcastInDim S150000x64 ![0, 1] bcast_S150000x1_S150000x64_0_1 y (ix2 r q) = y (ix2 r (0 : Fin 1)) :=
  broadcastInDim_apply _ bcast_S150000x1_S150000x64_0_1 y (ix2 r q) (ix2 r (0 : Fin 1)) (fun a => match a with
    | ⟨0, _⟩ => by show r.val = if (150000 : Nat) = 1 then 0 else r.val; rw [if_neg (by decide)]
    | ⟨1, _⟩ => by show 0 = if (1 : Nat) = 1 then 0 else q.val; rw [if_pos rfl])

theorem bcast_vec (y : S150000.Idx → EReal) (r : Fin 150000) (u : Fin 1) :
    broadcastInDim S150000x1 ![0] bcast_S150000_S150000x1_0 y (ix2 r u) = y (ix1 r) :=
  broadcastInDim_apply _ bcast_S150000_S150000x1_0 y (ix2 r u) (ix1 r) (fun a => match a with
    | ⟨0, _⟩ => by show r.val = if (150000 : Nat) = 1 then 0 else r.val; rw [if_neg (by decide)])

theorem bcast_scalar_col (y : S_.Idx → EReal) (i : S150000x1.Idx) :
    broadcastInDim S150000x1 ![] bcast_S_S150000x1 y i = y ix0 :=
  broadcastInDim_apply _ bcast_S_S150000x1 y i ix0 (fun a => a.elim0)

theorem bcast_scalar_tab (y : S_.Idx → EReal) (i : S150000x64.Idx) :
    broadcastInDim S150000x64 ![] bcast_S_S150000x64 y i = y ix0 :=
  broadcastInDim_apply _ bcast_S_S150000x64 y i ix0 (fun a => a.elim0)

/-- The host's sum over the columns from the zero word: at row `r`, the sum of the row. -/
theorem rowSum_apply (x : S150000x64.Idx → EReal) (r : Fin 150000) :
    Host.reduceAdd (F := Ideal) (φ := .f32) x (constant (F := Ideal) S_ .f32 0x00000000#32) reducesTo_S150000x64_S150000_d1 h_S_ (ix1 r)
      = ∑ k : Fin 64, x (ix2 r k) := by
  simp only [Host.reduceAdd, Ideal.hostReduceAdd_def]
  rw [Ideal.hostReduceAdd_single reducesTo_S150000x64_S150000_d1 (by decide)]
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl

theorem rowNorm_apply (n : Tab) (r : Fin 150000) (q : Fin 64) :
    rowNorm n (ix2 r q) = max (Ideal.sqrt (∑ k : Fin 64, n (ix2 r k) * n (ix2 r k))) (Ideal.ofBits .f32 0x2B8CBCCC#32) := by
  have hsqrt : ∀ (y : S150000x1.Idx → EReal) (i : S150000x1.Idx), Host.sqrt (F := Ideal) (φ := .f32) y i = Ideal.sqrt (y i) :=
    fun _ _ => rfl
  unfold rowNorm
  rw [bcast_col, maximumf_apply, bcast_scalar_col, hsqrt, bcast_vec, rowSum_apply]
  rfl

/-- The reference's update at the entry (r, q). -/
theorem updEgo_apply (e n : Tab) (r : Fin 150000) (q : Fin 64) :
    updEgo e n (ix2 r q) = step (e (ix2 r q)) (n (ix2 r q)) (∑ k : Fin 64, n (ix2 r k) * n (ix2 r k)) := by
  have hdiv : ∀ (a b : Tab) (i : S150000x64.Idx), Host.divf (F := Ideal) (φ := .f32) a b i = Ideal.div (a i) (b i) := fun _ _ _ => rfl
  unfold updEgo step
  rw [addf_apply, mulf_apply, mulf_apply, hdiv, rowNorm_apply, bcast_scalar_tab]
  rfl

end Cert.Host

end
-- ==== Proof.Regions.lean ====
/- What each launch of the update kernel leaves in its two output arrays.

   A launch runs the body at 30 points; point `t` reads rows 5000 t … 5000 t + 4999 of its three input arrays (the
   product table, the noise slice, the running sum) and writes the same rows of its two outputs. The body at an entry is
   `Upd.step` of the entry against its own row of the noise, so what point `t` writes is block `t` of ONE function of
   the whole input arrays — the reference's host update `Host.updEgo`, resp. the running sum plus it — and the 30
   blocks cover the table: the output arrays end holding those functions of whatever arrays the launch found. -/
import proofs.«135707_j27994596835373_1_alg».proof.Proof.PatchedKernelIdealFrame
import proofs.«135707_j27994596835373_1_alg».proof.Proof.Step
import proofs.«135707_j27994596835373_1_alg».proof.Proof.HostUpd
import Idealize.ShloMosaic.Lib.ValueIdx
import Idealize.ShloMosaic.Lib.Pipeline.Value

set_option maxRecDepth 16384

noncomputable section

/-! The three launches run one body: each launch's payloads unfold to the same term, so the entry formula proved for
    the first serves the second and the third. -/

namespace Cert.KernelIdeal.Body

open Idealize.ShloMosaic Idealize.ShloMosaic.ValueIdx Cert.KernelIdeal Cert.KernelIdeal.Gen Cert.Upd

theorem pay1_0_apply (x0 x1 : Vec Ideal S5000x64 .f32) (p : Fin 5000) (q : Fin 64) :
    k0_pay1 (F := Ideal) x0 x1 (ix2 p q) = step (x0 (ix2 p q)) (x1 (ix2 p q)) (∑ k : Fin 64, x1 (ix2 p k) * x1 (ix2 p k)) := pay1_apply x0 x1 p q
theorem pay2_0_apply (x0 x1 x2 : Vec Ideal S5000x64 .f32) (p : Fin 5000) (q : Fin 64) :
    k0_pay2 (F := Ideal) x0 x1 x2 (ix2 p q)
      = x2 (ix2 p q) + step (x0 (ix2 p q)) (x1 (ix2 p q)) (∑ k : Fin 64, x1 (ix2 p k) * x1 (ix2 p k)) := pay2_apply x0 x1 x2 p q
theorem pay1_1_apply (x0 x1 : Vec Ideal S5000x64 .f32) (p : Fin 5000) (q : Fin 64) :
    k1_pay1 (F := Ideal) x0 x1 (ix2 p q) = step (x0 (ix2 p q)) (x1 (ix2 p q)) (∑ k : Fin 64, x1 (ix2 p k) * x1 (ix2 p k)) := pay1_apply x0 x1 p q
theorem pay2_1_apply (x0 x1 x2 : Vec Ideal S5000x64 .f32) (p : Fin 5000) (q : Fin 64) :
    k1_pay2 (F := Ideal) x0 x1 x2 (ix2 p q)
      = x2 (ix2 p q) + step (x0 (ix2 p q)) (x1 (ix2 p q)) (∑ k : Fin 64, x1 (ix2 p k) * x1 (ix2 p k)) := pay2_apply x0 x1 x2 p q
theorem pay1_2_apply (x0 x1 : Vec Ideal S5000x64 .f32) (p : Fin 5000) (q : Fin 64) :
    k2_pay1 (F := Ideal) x0 x1 (ix2 p q) = step (x0 (ix2 p q)) (x1 (ix2 p q)) (∑ k : Fin 64, x1 (ix2 p k) * x1 (ix2 p k)) := pay1_apply x0 x1 p q
theorem pay2_2_apply (x0 x1 x2 : Vec Ideal S5000x64 .f32) (p : Fin 5000) (q : Fin 64) :
    k2_pay2 (F := Ideal) x0 x1 x2 (ix2 p q)
      = x2 (ix2 p q) + step (x0 (ix2 p q)) (x1 (ix2 p q)) (∑ k : Fin 64, x1 (ix2 p k) * x1 (ix2 p k)) := pay2_apply x0 x1 x2 p q

end Cert.KernelIdeal.Body

namespace Cert.KernelIdeal.Region

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

theorem origin : (![0, 0] : Fin 2 → Nat) = fun _ => 0 := funext fun a => by fin_cases a <;> rfl

/-- Row `p` of block `t` is row `5000 t + p` of the table. -/
def rowOf (t : Fin 30) (p : Fin 5000) : Fin 150000 := ⟨t.val * 5000 + p.val, by have := t.isLt; have := p.isLt; omega⟩

/-! ## Launch 0

    Every window's block at point `t` is block row `t` (block column 0) of its array — the printed index maps,
    decided over the 30 points — so entry `(p, q)` of a block is entry `(5000 t + p, q)` of the array. -/

section Launch0

theorem index0_0 : ∀ t : Fin cfg0.N, win0_0.index t (0 : Fin 2) = t.val ∧ win0_0.index t (1 : Fin 2) = 0 :=
  (by decide +kernel : ∀ t : Fin grid0.N, _)
theorem emb0_0 (t : Fin cfg0.N) (p : Fin 5000) (q : Fin 64) :
    ((cfg0.win 0).blk t).view.emb (ix2 p q) = ix2 (rowOf t p) q := by
  obtain ⟨a, b⟩ := index0_0 t
  funext d; apply Fin.ext
  match d with
  | ⟨0, _⟩ => show win0_0.index t (0 : Fin 2) * 5000 + 1 * p.val = t.val * 5000 + p.val; rw [a]; omega
  | ⟨1, _⟩ => show win0_0.index t (1 : Fin 2) * 64 + 1 * q.val = q.val; rw [b]; omega

theorem index0_1 : ∀ t : Fin cfg0.N, win0_1.index t (0 : Fin 2) = t.val ∧ win0_1.index t (1 : Fin 2) = 0 :=
  (by decide +kernel : ∀ t : Fin grid0.N, _)
theorem emb0_1 (t : Fin cfg0.N) (p : Fin 5000) (q : Fin 64) :
    ((cfg0.win 1).blk t).view.emb (ix2 p q) = ix2 (rowOf t p) q := by
  obtain ⟨a, b⟩ := index0_1 t
  funext d; apply Fin.ext
  match d with
  | ⟨0, _⟩ => show win0_1.index t (0 : Fin 2) * 5000 + 1 * p.val = t.val * 5000 + p.val; rw [a]; omega
  | ⟨1, _⟩ => show win0_1.index t (1 : Fin 2) * 64 + 1 * q.val = q.val; rw [b]; omega

theorem index0_2 : ∀ t : Fin cfg0.N, win0_2.index t (0 : Fin 2) = t.val ∧ win0_2.index t (1 : Fin 2) = 0 :=
  (by decide +kernel : ∀ t : Fin grid0.N, _)
theorem emb0_2 (t : Fin cfg0.N) (p : Fin 5000) (q : Fin 64) :
    ((cfg0.win 2).blk t).view.emb (ix2 p q) = ix2 (rowOf t p) q := by
  obtain ⟨a, b⟩ := index0_2 t
  funext d; apply Fin.ext
  match d with
  | ⟨0, _⟩ => show win0_2.index t (0 : Fin 2) * 5000 + 1 * p.val = t.val * 5000 + p.val; rw [a]; omega
  | ⟨1, _⟩ => show win0_2.index t (1 : Fin 2) * 64 + 1 * q.val = q.val; rw [b]; omega

theorem index0_3 : ∀ t : Fin cfg0.N, win0_3.index t (0 : Fin 2) = t.val ∧ win0_3.index t (1 : Fin 2) = 0 :=
  (by decide +kernel : ∀ t : Fin grid0.N, _)
theorem emb0_3 (t : Fin cfg0.N) (p : Fin 5000) (q : Fin 64) :
    ((cfg0.win 3).blk t).view.emb (ix2 p q) = ix2 (rowOf t p) q := by
  obtain ⟨a, b⟩ := index0_3 t
  funext d; apply Fin.ext
  match d with
  | ⟨0, _⟩ => show win0_3.index t (0 : Fin 2) * 5000 + 1 * p.val = t.val * 5000 + p.val; rw [a]; omega
  | ⟨1, _⟩ => show win0_3.index t (1 : Fin 2) * 64 + 1 * q.val = q.val; rw [b]; omega

theorem index0_4 : ∀ t : Fin cfg0.N, win0_4.index t (0 : Fin 2) = t.val ∧ win0_4.index t (1 : Fin 2) = 0 :=
  (by decide +kernel : ∀ t : Fin grid0.N, _)
theorem emb0_4 (t : Fin cfg0.N) (p : Fin 5000) (q : Fin 64) :
    ((cfg0.win 4).blk t).view.emb (ix2 p q) = ix2 (rowOf t p) q := by
  obtain ⟨a, b⟩ := index0_4 t
  funext d; apply Fin.ext
  match d with
  | ⟨0, _⟩ => show win0_4.index t (0 : Fin 2) * 5000 + 1 * p.val = t.val * 5000 + p.val; rw [a]; omega
  | ⟨1, _⟩ => show win0_4.index t (1 : Fin 2) * 64 + 1 * q.val = q.val; rw [b]; omega

variable (V : (c : Dev nD) → (b : Ref sig .tc) → Buf (Elt Ideal) ((c : Thread nD τ).loc b))

theorem iblk0_0_apply (c : Dev nD) (t : Fin cfg0.N) (p : Fin 5000) (q : Fin 64) :
    iblk0 V c 0 t (ix2 p q) = V c main_v13 (ix2 (rowOf t p) q) := by
  show V c main_v13 (((cfg0.win 0).blk t).view.emb (ix2 p q)) = _
  rw [emb0_0]

theorem iblk0_1_apply (c : Dev nD) (t : Fin cfg0.N) (p : Fin 5000) (q : Fin 64) :
    iblk0 V c 1 t (ix2 p q) = V c main_v15 (ix2 (rowOf t p) q) := by
  show V c main_v15 (((cfg0.win 1).blk t).view.emb (ix2 p q)) = _
  rw [emb0_1]

theorem iblk0_2_apply (c : Dev nD) (t : Fin cfg0.N) (p : Fin 5000) (q : Fin 64) :
    iblk0 V c 2 t (ix2 p q) = V c main_v0 (ix2 (rowOf t p) q) := by
  show V c main_v0 (((cfg0.win 2).blk t).view.emb (ix2 p q)) = _
  rw [emb0_2]

/-- WHAT POINT `t` WRITES BACK through the first output window: block `t` of the host update of the entry arrays. -/
theorem flushedEgo0 (c : Dev nD) (t : Fin cfg0.N) :
    (dat0 V c).flushed 3 t = ((cfg0.win 3).blk t).view.read (Elt Ideal) (Host.updEgo (V c main_v13) (V c main_v15)) := by
  show (cfg0.win 3).cut (grid0.coords t) ((dat0 V c).after 3 t) = _
  rw [after0_3]
  unfold out0_3
  rw [View.canon_unit_zero origin]
  simp only [View.ld_unit_zero (S := S5000x64) origin]
  funext y
  obtain ⟨p, q, rfl⟩ : ∃ (p : Fin 5000) (q : Fin 64), y = ix2 p q := ⟨y 0, y 1, eq_ix2 y⟩
  refine (Body.pay1_0_apply _ _ p q).trans ?_
  show _ = Host.updEgo (V c main_v13) (V c main_v15) (((cfg0.win 3).blk t).view.emb (ix2 p q))
  rw [emb0_3, Host.updEgo_apply, iblk0_0_apply V c t p q, iblk0_1_apply V c t p q]
  refine congrArg _ (Finset.sum_congr rfl fun k _ => ?_)
  rw [iblk0_1_apply V c t p k]

/-- WHAT POINT `t` WRITES BACK through the second output window: block `t` of the running sum plus the update. -/
theorem flushedAcc0 (c : Dev nD) (t : Fin cfg0.N) :
    (dat0 V c).flushed 4 t
      = ((cfg0.win 4).blk t).view.read (Elt Ideal) (Host.plus (V c main_v0) (Host.updEgo (V c main_v13) (V c main_v15))) := by
  show (cfg0.win 4).cut (grid0.coords t) ((dat0 V c).after 4 t) = _
  rw [after0_4]
  unfold out0_4
  rw [View.canon_unit_zero origin]
  simp only [View.ld_unit_zero (S := S5000x64) origin]
  funext y
  obtain ⟨p, q, rfl⟩ : ∃ (p : Fin 5000) (q : Fin 64), y = ix2 p q := ⟨y 0, y 1, eq_ix2 y⟩
  refine (Body.pay2_0_apply _ _ _ p q).trans ?_
  show _ = (Host.plus (V c main_v0) (Host.updEgo (V c main_v13) (V c main_v15))) (((cfg0.win 4).blk t).view.emb (ix2 p q))
  rw [emb0_4]
  rw [Host.plus_apply, Host.updEgo_apply, iblk0_0_apply V c t p q, iblk0_1_apply V c t p q, iblk0_2_apply V c t p q]
  refine congrArg _ (congrArg _ (Finset.sum_congr rfl fun k _ => ?_))
  rw [iblk0_1_apply V c t p k]

/-- An entry of the table is in point `t`'s block of output window 3 iff its row is one of the block's 5000. -/
theorem mem_blk0_3 (t : Fin cfg0.N) (i : S150000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16_0).slice (win0_3.rect t)).set ↔ _
  rw [View.set_slice_whole, Rect.mem_set_unit]
  exact Iff.rfl

/-- The 30 blocks cover the table: row `r` is in the block of point `r / 5000`. -/
theorem cover0_3 (i : S150000x64.Idx) :
    ∃ t : Fin cfg0.N, (cfg0.win 3).flush t = true ∧ i ∈ ((cfg0.win 3).blk t).view.set := by
  have hi0 : (i 0).val < 150000 := (i 0).isLt
  have hi1 : (i 1).val < 64 := (i 1).isLt
  let t : Fin cfg0.N := ⟨(i 0).val / 5000, by show (i 0).val / 5000 < 30; omega⟩
  obtain ⟨a, b⟩ := index0_3 t
  have ht : t.val = (i 0).val / 5000 := rfl
  refine ⟨t, flush0_3 t, ?_⟩
  rw [mem_blk0_3]
  intro d
  match d with
  | ⟨0, _⟩ => show win0_3.index t (0 : Fin 2) * 5000 ≤ (i 0).val ∧ (i 0).val < win0_3.index t (0 : Fin 2) * 5000 + 5000; rw [a, ht]; omega
  | ⟨1, _⟩ => show win0_3.index t (1 : Fin 2) * 64 ≤ (i 1).val ∧ (i 1).val < win0_3.index t (1 : Fin 2) * 64 + 64; rw [b]; omega

/-- An entry of the table is in point `t`'s block of output window 4 iff its row is one of the block's 5000. -/
theorem mem_blk0_4 (t : Fin cfg0.N) (i : S150000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v16_1).slice (win0_4.rect t)).set ↔ _
  rw [View.set_slice_whole, Rect.mem_set_unit]
  exact Iff.rfl

/-- The 30 blocks cover the table: row `r` is in the block of point `r / 5000`. -/
theorem cover0_4 (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  let t : Fin cfg0.N := ⟨(i 0).val / 5000, by show (i 0).val / 5000 < 30; omega⟩
  obtain ⟨a, b⟩ := index0_4 t
  have ht : t.val = (i 0).val / 5000 := rfl
  refine ⟨t, flush0_4 t, ?_⟩
  rw [mem_blk0_4]
  intro d
  match d with
  | ⟨0, _⟩ => show win0_4.index t (0 : Fin 2) * 5000 ≤ (i 0).val ∧ (i 0).val < win0_4.index t (0 : Fin 2) * 5000 + 5000; rw [a, ht]; omega
  | ⟨1, _⟩ => show win0_4.index t (1 : Fin 2) * 64 ≤ (i 1).val ∧ (i 1).val < win0_4.index t (1 : Fin 2) * 64 + 64; rw [b]; omega

/-- THE FIRST OUTPUT ARRAY after launch 0: the host update of the arrays the launch found. -/
theorem updated0 (c : Dev nD) : (dat0 V c).arrAt 3 cfg0.N = Host.updEgo (V c main_v13) (V c main_v15) :=
  (dat0 V c).arrAt_eq_of_cover 3 _ (fun t _ => flushedEgo0 V c t) cover0_3

/-- THE SECOND OUTPUT ARRAY after launch 0: the running sum it found plus that update. -/
theorem summed0 (c : Dev nD) :
    (dat0 V c).arrAt 4 cfg0.N = Host.plus (V c main_v0) (Host.updEgo (V c main_v13) (V c main_v15)) :=
  (dat0 V c).arrAt_eq_of_cover 4 _ (fun t _ => flushedAcc0 V c t) cover0_4

end Launch0

/-! ## Launch 1

    Every window's block at point `t` is block row `t` (block column 0) of its array — the printed index maps,
    decided over the 30 points — so entry `(p, q)` of a block is entry `(5000 t + p, q)` of the array. -/

section Launch1

theorem index1_0 : ∀ t : Fin cfg1.N, win1_0.index t (0 : Fin 2) = t.val ∧ win1_0.index t (1 : Fin 2) = 0 :=
  (by decide +kernel : ∀ t : Fin grid1.N, _)
theorem emb1_0 (t : Fin cfg1.N) (p : Fin 5000) (q : Fin 64) :
    ((cfg1.win 0).blk t).view.emb (ix2 p q) = ix2 (rowOf t p) q := by
  obtain ⟨a, b⟩ := index1_0 t
  funext d; apply Fin.ext
  match d with
  | ⟨0, _⟩ => show win1_0.index t (0 : Fin 2) * 5000 + 1 * p.val = t.val * 5000 + p.val; rw [a]; omega
  | ⟨1, _⟩ => show win1_0.index t (1 : Fin 2) * 64 + 1 * q.val = q.val; rw [b]; omega

theorem index1_1 : ∀ t : Fin cfg1.N, win1_1.index t (0 : Fin 2) = t.val ∧ win1_1.index t (1 : Fin 2) = 0 :=
  (by decide +kernel : ∀ t : Fin grid1.N, _)
theorem emb1_1 (t : Fin cfg1.N) (p : Fin 5000) (q : Fin 64) :
    ((cfg1.win 1).blk t).view.emb (ix2 p q) = ix2 (rowOf t p) q := by
  obtain ⟨a, b⟩ := index1_1 t
  funext d; apply Fin.ext
  match d with
  | ⟨0, _⟩ => show win1_1.index t (0 : Fin 2) * 5000 + 1 * p.val = t.val * 5000 + p.val; rw [a]; omega
  | ⟨1, _⟩ => show win1_1.index t (1 : Fin 2) * 64 + 1 * q.val = q.val; rw [b]; omega

theorem index1_2 : ∀ t : Fin cfg1.N, win1_2.index t (0 : Fin 2) = t.val ∧ win1_2.index t (1 : Fin 2) = 0 :=
  (by decide +kernel : ∀ t : Fin grid1.N, _)
theorem emb1_2 (t : Fin cfg1.N) (p : Fin 5000) (q : Fin 64) :
    ((cfg1.win 2).blk t).view.emb (ix2 p q) = ix2 (rowOf t p) q := by
  obtain ⟨a, b⟩ := index1_2 t
  funext d; apply Fin.ext
  match d with
  | ⟨0, _⟩ => show win1_2.index t (0 : Fin 2) * 5000 + 1 * p.val = t.val * 5000 + p.val; rw [a]; omega
  | ⟨1, _⟩ => show win1_2.index t (1 : Fin 2) * 64 + 1 * q.val = q.val; rw [b]; omega

theorem index1_3 : ∀ t : Fin cfg1.N, win1_3.index t (0 : Fin 2) = t.val ∧ win1_3.index t (1 : Fin 2) = 0 :=
  (by decide +kernel : ∀ t : Fin grid1.N, _)
theorem emb1_3 (t : Fin cfg1.N) (p : Fin 5000) (q : Fin 64) :
    ((cfg1.win 3).blk t).view.emb (ix2 p q) = ix2 (rowOf t p) q := by
  obtain ⟨a, b⟩ := index1_3 t
  funext d; apply Fin.ext
  match d with
  | ⟨0, _⟩ => show win1_3.index t (0 : Fin 2) * 5000 + 1 * p.val = t.val * 5000 + p.val; rw [a]; omega
  | ⟨1, _⟩ => show win1_3.index t (1 : Fin 2) * 64 + 1 * q.val = q.val; rw [b]; omega

theorem index1_4 : ∀ t : Fin cfg1.N, win1_4.index t (0 : Fin 2) = t.val ∧ win1_4.index t (1 : Fin 2) = 0 :=
  (by decide +kernel : ∀ t : Fin grid1.N, _)
theorem emb1_4 (t : Fin cfg1.N) (p : Fin 5000) (q : Fin 64) :
    ((cfg1.win 4).blk t).view.emb (ix2 p q) = ix2 (rowOf t p) q := by
  obtain ⟨a, b⟩ := index1_4 t
  funext d; apply Fin.ext
  match d with
  | ⟨0, _⟩ => show win1_4.index t (0 : Fin 2) * 5000 + 1 * p.val = t.val * 5000 + p.val; rw [a]; omega
  | ⟨1, _⟩ => show win1_4.index t (1 : Fin 2) * 64 + 1 * q.val = q.val; rw [b]; omega

variable (V : (c : Dev nD) → (b : Ref sig .tc) → Buf (Elt Ideal) ((c : Thread nD τ).loc b))

theorem iblk1_0_apply (c : Dev nD) (t : Fin cfg1.N) (p : Fin 5000) (q : Fin 64) :
    iblk1 V c 0 t (ix2 p q) = V c main_v29 (ix2 (rowOf t p) q) := by
  show V c main_v29 (((cfg1.win 0).blk t).view.emb (ix2 p q)) = _
  rw [emb1_0]

theorem iblk1_1_apply (c : Dev nD) (t : Fin cfg1.N) (p : Fin 5000) (q : Fin 64) :
    iblk1 V c 1 t (ix2 p q) = V c main_v31 (ix2 (rowOf t p) q) := by
  show V c main_v31 (((cfg1.win 1).blk t).view.emb (ix2 p q)) = _
  rw [emb1_1]

theorem iblk1_2_apply (c : Dev nD) (t : Fin cfg1.N) (p : Fin 5000) (q : Fin 64) :
    iblk1 V c 2 t (ix2 p q) = V c main_v16_1 (ix2 (rowOf t p) q) := by
  show V c main_v16_1 (((cfg1.win 2).blk t).view.emb (ix2 p q)) = _
  rw [emb1_2]

/-- WHAT POINT `t` WRITES BACK through the first output window: block `t` of the host update of the entry arrays. -/
theorem flushedEgo1 (c : Dev nD) (t : Fin cfg1.N) :
    (dat1 V c).flushed 3 t = ((cfg1.win 3).blk t).view.read (Elt Ideal) (Host.updEgo (V c main_v29) (V c main_v31)) := by
  show (cfg1.win 3).cut (grid1.coords t) ((dat1 V c).after 3 t) = _
  rw [after1_3]
  unfold out1_3
  rw [View.canon_unit_zero origin]
  simp only [View.ld_unit_zero (S := S5000x64) origin]
  funext y
  obtain ⟨p, q, rfl⟩ : ∃ (p : Fin 5000) (q : Fin 64), y = ix2 p q := ⟨y 0, y 1, eq_ix2 y⟩
  refine (Body.pay1_1_apply _ _ p q).trans ?_
  show _ = Host.updEgo (V c main_v29) (V c main_v31) (((cfg1.win 3).blk t).view.emb (ix2 p q))
  rw [emb1_3, Host.updEgo_apply, iblk1_0_apply V c t p q, iblk1_1_apply V c t p q]
  refine congrArg _ (Finset.sum_congr rfl fun k _ => ?_)
  rw [iblk1_1_apply V c t p k]

/-- WHAT POINT `t` WRITES BACK through the second output window: block `t` of the running sum plus the update. -/
theorem flushedAcc1 (c : Dev nD) (t : Fin cfg1.N) :
    (dat1 V c).flushed 4 t
      = ((cfg1.win 4).blk t).view.read (Elt Ideal) (Host.plus (V c main_v16_1) (Host.updEgo (V c main_v29) (V c main_v31))) := by
  show (cfg1.win 4).cut (grid1.coords t) ((dat1 V c).after 4 t) = _
  rw [after1_4]
  unfold out1_4
  rw [View.canon_unit_zero origin]
  simp only [View.ld_unit_zero (S := S5000x64) origin]
  funext y
  obtain ⟨p, q, rfl⟩ : ∃ (p : Fin 5000) (q : Fin 64), y = ix2 p q := ⟨y 0, y 1, eq_ix2 y⟩
  refine (Body.pay2_1_apply _ _ _ p q).trans ?_
  show _ = (Host.plus (V c main_v16_1) (Host.updEgo (V c main_v29) (V c main_v31))) (((cfg1.win 4).blk t).view.emb (ix2 p q))
  rw [emb1_4]
  rw [Host.plus_apply, Host.updEgo_apply, iblk1_0_apply V c t p q, iblk1_1_apply V c t p q, iblk1_2_apply V c t p q]
  refine congrArg _ (congrArg _ (Finset.sum_congr rfl fun k _ => ?_))
  rw [iblk1_1_apply V c t p k]

/-- An entry of the table is in point `t`'s block of output window 3 iff its row is one of the block's 5000. -/
theorem mem_blk1_3 (t : Fin cfg1.N) (i : S150000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v32_0).slice (win1_3.rect t)).set ↔ _
  rw [View.set_slice_whole, Rect.mem_set_unit]
  exact Iff.rfl

/-- The 30 blocks cover the table: row `r` is in the block of point `r / 5000`. -/
theorem cover1_3 (i : S150000x64.Idx) :
    ∃ t : Fin cfg1.N, (cfg1.win 3).flush t = true ∧ i ∈ ((cfg1.win 3).blk t).view.set := by
  have hi0 : (i 0).val < 150000 := (i 0).isLt
  have hi1 : (i 1).val < 64 := (i 1).isLt
  let t : Fin cfg1.N := ⟨(i 0).val / 5000, by show (i 0).val / 5000 < 30; omega⟩
  obtain ⟨a, b⟩ := index1_3 t
  have ht : t.val = (i 0).val / 5000 := rfl
  refine ⟨t, flush1_3 t, ?_⟩
  rw [mem_blk1_3]
  intro d
  match d with
  | ⟨0, _⟩ => show win1_3.index t (0 : Fin 2) * 5000 ≤ (i 0).val ∧ (i 0).val < win1_3.index t (0 : Fin 2) * 5000 + 5000; rw [a, ht]; omega
  | ⟨1, _⟩ => show win1_3.index t (1 : Fin 2) * 64 ≤ (i 1).val ∧ (i 1).val < win1_3.index t (1 : Fin 2) * 64 + 64; rw [b]; omega

/-- An entry of the table is in point `t`'s block of output window 4 iff its row is one of the block's 5000. -/
theorem mem_blk1_4 (t : Fin cfg1.N) (i : S150000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v32_1).slice (win1_4.rect t)).set ↔ _
  rw [View.set_slice_whole, Rect.mem_set_unit]
  exact Iff.rfl

/-- The 30 blocks cover the table: row `r` is in the block of point `r / 5000`. -/
theorem cover1_4 (i : S150000x64.Idx) :
    ∃ t : Fin cfg1.N, (cfg1.win 4).flush t = true ∧ i ∈ ((cfg1.win 4).blk t).view.set := by
  have hi0 : (i 0).val < 150000 := (i 0).isLt
  have hi1 : (i 1).val < 64 := (i 1).isLt
  let t : Fin cfg1.N := ⟨(i 0).val / 5000, by show (i 0).val / 5000 < 30; omega⟩
  obtain ⟨a, b⟩ := index1_4 t
  have ht : t.val = (i 0).val / 5000 := rfl
  refine ⟨t, flush1_4 t, ?_⟩
  rw [mem_blk1_4]
  intro d
  match d with
  | ⟨0, _⟩ => show win1_4.index t (0 : Fin 2) * 5000 ≤ (i 0).val ∧ (i 0).val < win1_4.index t (0 : Fin 2) * 5000 + 5000; rw [a, ht]; omega
  | ⟨1, _⟩ => show win1_4.index t (1 : Fin 2) * 64 ≤ (i 1).val ∧ (i 1).val < win1_4.index t (1 : Fin 2) * 64 + 64; rw [b]; omega

/-- THE FIRST OUTPUT ARRAY after launch 1: the host update of the arrays the launch found. -/
theorem updated1 (c : Dev nD) : (dat1 V c).arrAt 3 cfg1.N = Host.updEgo (V c main_v29) (V c main_v31) :=
  (dat1 V c).arrAt_eq_of_cover 3 _ (fun t _ => flushedEgo1 V c t) cover1_3

/-- THE SECOND OUTPUT ARRAY after launch 1: the running sum it found plus that update. -/
theorem summed1 (c : Dev nD) :
    (dat1 V c).arrAt 4 cfg1.N = Host.plus (V c main_v16_1) (Host.updEgo (V c main_v29) (V c main_v31)) :=
  (dat1 V c).arrAt_eq_of_cover 4 _ (fun t _ => flushedAcc1 V c t) cover1_4

end Launch1

/-! ## Launch 2

    Every window's block at point `t` is block row `t` (block column 0) of its array — the printed index maps,
    decided over the 30 points — so entry `(p, q)` of a block is entry `(5000 t + p, q)` of the array. -/

section Launch2

theorem index2_0 : ∀ t : Fin cfg2.N, win2_0.index t (0 : Fin 2) = t.val ∧ win2_0.index t (1 : Fin 2) = 0 :=
  (by decide +kernel : ∀ t : Fin grid2.N, _)
theorem emb2_0 (t : Fin cfg2.N) (p : Fin 5000) (q : Fin 64) :
    ((cfg2.win 0).blk t).view.emb (ix2 p q) = ix2 (rowOf t p) q := by
  obtain ⟨a, b⟩ := index2_0 t
  funext d; apply Fin.ext
  match d with
  | ⟨0, _⟩ => show win2_0.index t (0 : Fin 2) * 5000 + 1 * p.val = t.val * 5000 + p.val; rw [a]; omega
  | ⟨1, _⟩ => show win2_0.index t (1 : Fin 2) * 64 + 1 * q.val = q.val; rw [b]; omega

theorem index2_1 : ∀ t : Fin cfg2.N, win2_1.index t (0 : Fin 2) = t.val ∧ win2_1.index t (1 : Fin 2) = 0 :=
  (by decide +kernel : ∀ t : Fin grid2.N, _)
theorem emb2_1 (t : Fin cfg2.N) (p : Fin 5000) (q : Fin 64) :
    ((cfg2.win 1).blk t).view.emb (ix2 p q) = ix2 (rowOf t p) q := by
  obtain ⟨a, b⟩ := index2_1 t
  funext d; apply Fin.ext
  match d with
  | ⟨0, _⟩ => show win2_1.index t (0 : Fin 2) * 5000 + 1 * p.val = t.val * 5000 + p.val; rw [a]; omega
  | ⟨1, _⟩ => show win2_1.index t (1 : Fin 2) * 64 + 1 * q.val = q.val; rw [b]; omega

theorem index2_2 : ∀ t : Fin cfg2.N, win2_2.index t (0 : Fin 2) = t.val ∧ win2_2.index t (1 : Fin 2) = 0 :=
  (by decide +kernel : ∀ t : Fin grid2.N, _)
theorem emb2_2 (t : Fin cfg2.N) (p : Fin 5000) (q : Fin 64) :
    ((cfg2.win 2).blk t).view.emb (ix2 p q) = ix2 (rowOf t p) q := by
  obtain ⟨a, b⟩ := index2_2 t
  funext d; apply Fin.ext
  match d with
  | ⟨0, _⟩ => show win2_2.index t (0 : Fin 2) * 5000 + 1 * p.val = t.val * 5000 + p.val; rw [a]; omega
  | ⟨1, _⟩ => show win2_2.index t (1 : Fin 2) * 64 + 1 * q.val = q.val; rw [b]; omega

theorem index2_3 : ∀ t : Fin cfg2.N, win2_3.index t (0 : Fin 2) = t.val ∧ win2_3.index t (1 : Fin 2) = 0 :=
  (by decide +kernel : ∀ t : Fin grid2.N, _)
theorem emb2_3 (t : Fin cfg2.N) (p : Fin 5000) (q : Fin 64) :
    ((cfg2.win 3).blk t).view.emb (ix2 p q) = ix2 (rowOf t p) q := by
  obtain ⟨a, b⟩ := index2_3 t
  funext d; apply Fin.ext
  match d with
  | ⟨0, _⟩ => show win2_3.index t (0 : Fin 2) * 5000 + 1 * p.val = t.val * 5000 + p.val; rw [a]; omega
  | ⟨1, _⟩ => show win2_3.index t (1 : Fin 2) * 64 + 1 * q.val = q.val; rw [b]; omega

theorem index2_4 : ∀ t : Fin cfg2.N, win2_4.index t (0 : Fin 2) = t.val ∧ win2_4.index t (1 : Fin 2) = 0 :=
  (by decide +kernel : ∀ t : Fin grid2.N, _)
theorem emb2_4 (t : Fin cfg2.N) (p : Fin 5000) (q : Fin 64) :
    ((cfg2.win 4).blk t).view.emb (ix2 p q) = ix2 (rowOf t p) q := by
  obtain ⟨a, b⟩ := index2_4 t
  funext d; apply Fin.ext
  match d with
  | ⟨0, _⟩ => show win2_4.index t (0 : Fin 2) * 5000 + 1 * p.val = t.val * 5000 + p.val; rw [a]; omega
  | ⟨1, _⟩ => show win2_4.index t (1 : Fin 2) * 64 + 1 * q.val = q.val; rw [b]; omega

variable (V : (c : Dev nD) → (b : Ref sig .tc) → Buf (Elt Ideal) ((c : Thread nD τ).loc b))

theorem iblk2_0_apply (c : Dev nD) (t : Fin cfg2.N) (p : Fin 5000) (q : Fin 64) :
    iblk2 V c 0 t (ix2 p q) = V c main_v45 (ix2 (rowOf t p) q) := by
  show V c main_v45 (((cfg2.win 0).blk t).view.emb (ix2 p q)) = _
  rw [emb2_0]

theorem iblk2_1_apply (c : Dev nD) (t : Fin cfg2.N) (p : Fin 5000) (q : Fin 64) :
    iblk2 V c 1 t (ix2 p q) = V c main_v47 (ix2 (rowOf t p) q) := by
  show V c main_v47 (((cfg2.win 1).blk t).view.emb (ix2 p q)) = _
  rw [emb2_1]

theorem iblk2_2_apply (c : Dev nD) (t : Fin cfg2.N) (p : Fin 5000) (q : Fin 64) :
    iblk2 V c 2 t (ix2 p q) = V c main_v32_1 (ix2 (rowOf t p) q) := by
  show V c main_v32_1 (((cfg2.win 2).blk t).view.emb (ix2 p q)) = _
  rw [emb2_2]

/-- WHAT POINT `t` WRITES BACK through the first output window: block `t` of the host update of the entry arrays. -/
theorem flushedEgo2 (c : Dev nD) (t : Fin cfg2.N) :
    (dat2 V c).flushed 3 t = ((cfg2.win 3).blk t).view.read (Elt Ideal) (Host.updEgo (V c main_v45) (V c main_v47)) := by
  show (cfg2.win 3).cut (grid2.coords t) ((dat2 V c).after 3 t) = _
  rw [after2_3]
  unfold out2_3
  rw [View.canon_unit_zero origin]
  simp only [View.ld_unit_zero (S := S5000x64) origin]
  funext y
  obtain ⟨p, q, rfl⟩ : ∃ (p : Fin 5000) (q : Fin 64), y = ix2 p q := ⟨y 0, y 1, eq_ix2 y⟩
  refine (Body.pay1_2_apply _ _ p q).trans ?_
  show _ = Host.updEgo (V c main_v45) (V c main_v47) (((cfg2.win 3).blk t).view.emb (ix2 p q))
  rw [emb2_3, Host.updEgo_apply, iblk2_0_apply V c t p q, iblk2_1_apply V c t p q]
  refine congrArg _ (Finset.sum_congr rfl fun k _ => ?_)
  rw [iblk2_1_apply V c t p k]

/-- WHAT POINT `t` WRITES BACK through the second output window: block `t` of the running sum plus the update. -/
theorem flushedAcc2 (c : Dev nD) (t : Fin cfg2.N) :
    (dat2 V c).flushed 4 t
      = ((cfg2.win 4).blk t).view.read (Elt Ideal) (Host.plus (V c main_v32_1) (Host.updEgo (V c main_v45) (V c main_v47))) := by
  show (cfg2.win 4).cut (grid2.coords t) ((dat2 V c).after 4 t) = _
  rw [after2_4]
  unfold out2_4
  rw [View.canon_unit_zero origin]
  simp only [View.ld_unit_zero (S := S5000x64) origin]
  funext y
  obtain ⟨p, q, rfl⟩ : ∃ (p : Fin 5000) (q : Fin 64), y = ix2 p q := ⟨y 0, y 1, eq_ix2 y⟩
  refine (Body.pay2_2_apply _ _ _ p q).trans ?_
  show _ = (Host.plus (V c main_v32_1) (Host.updEgo (V c main_v45) (V c main_v47))) (((cfg2.win 4).blk t).view.emb (ix2 p q))
  rw [emb2_4]
  rw [Host.plus_apply, Host.updEgo_apply, iblk2_0_apply V c t p q, iblk2_1_apply V c t p q, iblk2_2_apply V c t p q]
  refine congrArg _ (congrArg _ (Finset.sum_congr rfl fun k _ => ?_))
  rw [iblk2_1_apply V c t p k]

/-- An entry of the table is in point `t`'s block of output window 3 iff its row is one of the block's 5000. -/
theorem mem_blk2_3 (t : Fin cfg2.N) (i : S150000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v48_0).slice (win2_3.rect t)).set ↔ _
  rw [View.set_slice_whole, Rect.mem_set_unit]
  exact Iff.rfl

/-- The 30 blocks cover the table: row `r` is in the block of point `r / 5000`. -/
theorem cover2_3 (i : S150000x64.Idx) :
    ∃ t : Fin cfg2.N, (cfg2.win 3).flush t = true ∧ i ∈ ((cfg2.win 3).blk t).view.set := by
  have hi0 : (i 0).val < 150000 := (i 0).isLt
  have hi1 : (i 1).val < 64 := (i 1).isLt
  let t : Fin cfg2.N := ⟨(i 0).val / 5000, by show (i 0).val / 5000 < 30; omega⟩
  obtain ⟨a, b⟩ := index2_3 t
  have ht : t.val = (i 0).val / 5000 := rfl
  refine ⟨t, flush2_3 t, ?_⟩
  rw [mem_blk2_3]
  intro d
  match d with
  | ⟨0, _⟩ => show win2_3.index t (0 : Fin 2) * 5000 ≤ (i 0).val ∧ (i 0).val < win2_3.index t (0 : Fin 2) * 5000 + 5000; rw [a, ht]; omega
  | ⟨1, _⟩ => show win2_3.index t (1 : Fin 2) * 64 ≤ (i 1).val ∧ (i 1).val < win2_3.index t (1 : Fin 2) * 64 + 64; rw [b]; omega

/-- An entry of the table is in point `t`'s block of output window 4 iff its row is one of the block's 5000. -/
theorem mem_blk2_4 (t : Fin cfg2.N) (i : S150000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v48_1).slice (win2_4.rect t)).set ↔ _
  rw [View.set_slice_whole, Rect.mem_set_unit]
  exact Iff.rfl

/-- The 30 blocks cover the table: row `r` is in the block of point `r / 5000`. -/
theorem cover2_4 (i : S150000x64.Idx) :
    ∃ t : Fin cfg2.N, (cfg2.win 4).flush t = true ∧ i ∈ ((cfg2.win 4).blk t).view.set := by
  have hi0 : (i 0).val < 150000 := (i 0).isLt
  have hi1 : (i 1).val < 64 := (i 1).isLt
  let t : Fin cfg2.N := ⟨(i 0).val / 5000, by show (i 0).val / 5000 < 30; omega⟩
  obtain ⟨a, b⟩ := index2_4 t
  have ht : t.val = (i 0).val / 5000 := rfl
  refine ⟨t, flush2_4 t, ?_⟩
  rw [mem_blk2_4]
  intro d
  match d with
  | ⟨0, _⟩ => show win2_4.index t (0 : Fin 2) * 5000 ≤ (i 0).val ∧ (i 0).val < win2_4.index t (0 : Fin 2) * 5000 + 5000; rw [a, ht]; omega
  | ⟨1, _⟩ => show win2_4.index t (1 : Fin 2) * 64 ≤ (i 1).val ∧ (i 1).val < win2_4.index t (1 : Fin 2) * 64 + 64; rw [b]; omega

/-- THE FIRST OUTPUT ARRAY after launch 2: the host update of the arrays the launch found. -/
theorem updated2 (c : Dev nD) : (dat2 V c).arrAt 3 cfg2.N = Host.updEgo (V c main_v45) (V c main_v47) :=
  (dat2 V c).arrAt_eq_of_cover 3 _ (fun t _ => flushedEgo2 V c t) cover2_3

/-- THE SECOND OUTPUT ARRAY after launch 2: the running sum it found plus that update. -/
theorem summed2 (c : Dev nD) :
    (dat2 V c).arrAt 4 cfg2.N = Host.plus (V c main_v32_1) (Host.updEgo (V c main_v45) (V c main_v47)) :=
  (dat2 V c).arrAt_eq_of_cover 4 _ (fun t _ => flushedAcc2 V c t) cover2_4

end Launch2

end Cert.KernelIdeal.Region

end
-- ==== Proof.Fold.lean ====
/- The idealized kernel's final memory, computed.

   The frame module folds the buffer contents through @main's seven segments (`W1` … `W7`). Read back one
   segment at a time: the first host stretch leaves the table, the first sparse product and the first noise slice;
   each launch leaves the host update of what it found and the running sum plus it; each later stretch forms the next
   product from the last updated table; the last stretch divides the running sum by four and cuts the user rows and
   the item rows. The arguments are never written, so every stretch finds them as launched. -/
import proofs.«135707_j27994596835373_1_alg».proof.Proof.PatchedKernelIdealFrame
import proofs.«135707_j27994596835373_1_alg».proof.Proof.Regions
import proofs.«135707_j27994596835373_1_alg».proof.Proof.HostUpd
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg) (c : Dev nD)

/-! ### After the host stretch 0 -/

theorem W1_tab : W1 m ρ c (Proc.devRef .tc main_v0) = Host.table (m ((c : Thread nD τ).loc main_arg0)) (m ((c : Thread nD τ).loc main_arg1)) := by
  show StableHlo.after hostOps0 (W0 m ρ c) (Proc.devRef .tc main_v0) = _
  after_results <;> rfl
set_option maxHeartbeats 4000000 in
theorem W1_prod : W1 m ρ c (Proc.devRef .tc main_v13) = Host.spmm (m ((c : Thread nD τ).loc main_arg2)) (m ((c : Thread nD τ).loc main_arg4)) (m ((c : Thread nD τ).loc main_arg5)) (Host.table (m ((c : Thread nD τ).loc main_arg0)) (m ((c : Thread nD τ).loc main_arg1))) := by
  show StableHlo.after hostOps0 (W0 m ρ c) (Proc.devRef .tc main_v13) = _
  after_results_simp <;> rfl
theorem W1_noise : W1 m ρ c (Proc.devRef .tc main_v15) = Host.noise0 (m ((c : Thread nD τ).loc main_arg3)) := by
  show StableHlo.after hostOps0 (W0 m ρ c) (Proc.devRef .tc main_v15) = _
  after_results <;> rfl
theorem W1_arg2 : W1 m ρ c (Proc.devRef .tc main_arg2) = (m ((c : Thread nD τ).loc main_arg2)) := by
  show StableHlo.after hostOps0 (W0 m ρ c) (Proc.devRef .tc main_arg2) = _
  after_results <;> rfl
theorem W1_arg3 : W1 m ρ c (Proc.devRef .tc main_arg3) = (m ((c : Thread nD τ).loc main_arg3)) := by
  show StableHlo.after hostOps0 (W0 m ρ c) (Proc.devRef .tc main_arg3) = _
  after_results <;> rfl
theorem W1_arg4 : W1 m ρ c (Proc.devRef .tc main_arg4) = (m ((c : Thread nD τ).loc main_arg4)) := by
  show StableHlo.after hostOps0 (W0 m ρ c) (Proc.devRef .tc main_arg4) = _
  after_results <;> rfl
theorem W1_arg5 : W1 m ρ c (Proc.devRef .tc main_arg5) = (m ((c : Thread nD τ).loc main_arg5)) := by
  show StableHlo.after hostOps0 (W0 m ρ c) (Proc.devRef .tc main_arg5) = _
  after_results <;> rfl

/-! ### After launch 0 -/

theorem W2_ego : W2 m ρ c (Proc.devRef .tc main_v16_0) = Host.ego1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 3).trans ((Region.updated0 (V1 m ρ) c).trans (congrArg₂ Host.updEgo (W1_prod m ρ c) (W1_noise m ρ c)))
theorem W2_acc : W2 m ρ c (Proc.devRef .tc main_v16_1) = Host.sum1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 4).trans ((Region.summed0 (V1 m ρ) c).trans
    (congrArg₂ Host.plus (W1_tab m ρ c) (congrArg₂ Host.updEgo (W1_prod m ρ c) (W1_noise m ρ c))))
theorem W2_arg2 : W2 m ρ c (Proc.devRef .tc main_arg2) = (m ((c : Thread nD τ).loc main_arg2)) :=
  (W2_of_ne m ρ c main_arg2 (by decide)).trans (W1_arg2 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)

/-! ### After the host stretch 1 -/

set_option maxHeartbeats 4000000 in
/-- The stretch's product, of what the stretch found. -/
theorem W3_prod_raw : StableHlo.after hostOps1 (W2 m ρ c) (Proc.devRef .tc main_v29) = Host.spmm (W2 m ρ c (Proc.devRef .tc main_arg2)) (W2 m ρ c (Proc.devRef .tc main_arg4)) (W2 m ρ c (Proc.devRef .tc main_arg5)) (W2 m ρ c (Proc.devRef .tc main_v16_0)) := by
  after_results_simp <;> rfl
theorem W3_prod : W3 m ρ c (Proc.devRef .tc main_v29) = Host.spmm (m ((c : Thread nD τ).loc main_arg2)) (m ((c : Thread nD τ).loc main_arg4)) (m ((c : Thread nD τ).loc main_arg5)) (Host.ego1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W3_prod_raw m ρ c).trans
    (by rw [W2_arg2 m ρ c, W2_arg4 m ρ c, W2_arg5 m ρ c, W2_ego m ρ c])
theorem W3_noise : W3 m ρ c (Proc.devRef .tc main_v31) = Host.noise1 (m ((c : Thread nD τ).loc main_arg3)) :=
  (show StableHlo.after hostOps1 (W2 m ρ c) (Proc.devRef .tc main_v31) = Host.noise1 (W2 m ρ c (Proc.devRef .tc main_arg3)) from by after_results <;> rfl).trans (by rw [W2_arg3 m ρ c])
theorem W3_acc : W3 m ρ c (Proc.devRef .tc main_v16_1) = Host.sum1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show StableHlo.after hostOps1 (W2 m ρ c) (Proc.devRef .tc main_v16_1) = W2 m ρ c (Proc.devRef .tc main_v16_1) from by after_results <;> rfl).trans (W2_acc m ρ c)
theorem W3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) from by after_results <;> rfl).trans (W2_arg2 m ρ c)
theorem W3_arg3 : W3 m ρ c (Proc.devRef .tc main_arg3) = (m ((c : Thread nD τ).loc main_arg3)) :=
  (show StableHlo.after hostOps1 (W2 m ρ c) (Proc.devRef .tc main_arg3) = W2 m ρ c (Proc.devRef .tc main_arg3) from by after_results <;> rfl).trans (W2_arg3 m ρ c)
theorem W3_arg4 : W3 m ρ c (Proc.devRef .tc main_arg4) = (m ((c : Thread nD τ).loc main_arg4)) :=
  (show StableHlo.after hostOps1 (W2 m ρ c) (Proc.devRef .tc main_arg4) = W2 m ρ c (Proc.devRef .tc main_arg4) from by after_results <;> rfl).trans (W2_arg4 m ρ c)
theorem W3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) from by after_results <;> rfl).trans (W2_arg5 m ρ c)

/-! ### After launch 1 -/

theorem W4_ego : W4 m ρ c (Proc.devRef .tc main_v32_0) = Host.ego2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m ρ c 3).trans ((Region.updated1 (V3 m ρ) c).trans
    (congrArg₂ Host.updEgo (W3_prod m ρ c) (W3_noise m ρ c)))
theorem W4_acc : W4 m ρ c (Proc.devRef .tc main_v32_1) = Host.sum2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m ρ c 4).trans ((Region.summed1 (V3 m ρ) c).trans
    (congrArg₂ Host.plus (W3_acc m ρ c) (congrArg₂ Host.updEgo (W3_prod m ρ c) (W3_noise m ρ c))))
theorem W4_arg2 : W4 m ρ c (Proc.devRef .tc main_arg2) = (m ((c : Thread nD τ).loc main_arg2)) :=
  (W4_of_ne m ρ c main_arg2 (by decide)).trans (W3_arg2 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ### After the host stretch 2 -/

set_option maxHeartbeats 4000000 in
/-- The stretch's product, of what the stretch found. -/
theorem W5_prod_raw : StableHlo.after hostOps2 (W4 m ρ c) (Proc.devRef .tc main_v45) = Host.spmm (W4 m ρ c (Proc.devRef .tc main_arg2)) (W4 m ρ c (Proc.devRef .tc main_arg4)) (W4 m ρ c (Proc.devRef .tc main_arg5)) (W4 m ρ c (Proc.devRef .tc main_v32_0)) := by
  after_results_simp <;> rfl
theorem W5_prod : W5 m ρ c (Proc.devRef .tc main_v45) = Host.spmm (m ((c : Thread nD τ).loc main_arg2)) (m ((c : Thread nD τ).loc main_arg4)) (m ((c : Thread nD τ).loc main_arg5)) (Host.ego2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W5_prod_raw m ρ c).trans
    (by rw [W4_arg2 m ρ c, W4_arg4 m ρ c, W4_arg5 m ρ c, W4_ego m ρ c])
theorem W5_noise : W5 m ρ c (Proc.devRef .tc main_v47) = Host.noise2 (m ((c : Thread nD τ).loc main_arg3)) :=
  (show StableHlo.after hostOps2 (W4 m ρ c) (Proc.devRef .tc main_v47) = Host.noise2 (W4 m ρ c (Proc.devRef .tc main_arg3)) from by after_results <;> rfl).trans (by rw [W4_arg3 m ρ c])
theorem W5_acc : W5 m ρ c (Proc.devRef .tc main_v32_1) = Host.sum2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show StableHlo.after hostOps2 (W4 m ρ c) (Proc.devRef .tc main_v32_1) = W4 m ρ c (Proc.devRef .tc main_v32_1) from by after_results <;> rfl).trans (W4_acc m ρ c)

/-! ### After launch 2 -/

theorem W6_ego : W6 m ρ c (Proc.devRef .tc main_v48_0) = Host.ego3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 3).trans ((Region.updated2 (V5 m ρ) c).trans
    (congrArg₂ Host.updEgo (W5_prod m ρ c) (W5_noise m ρ c)))
theorem W6_acc : W6 m ρ c (Proc.devRef .tc main_v48_1) = Host.sum3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 4).trans ((Region.summed2 (V5 m ρ) c).trans
    (congrArg₂ Host.plus (W5_acc m ρ c) (congrArg₂ Host.updEgo (W5_prod m ρ c) (W5_noise m ρ c))))

/-! ### After the last host stretch: the two results -/

theorem W7_users : W7 m ρ c (Proc.devRef .tc main_v51) = Host.users (Host.sum3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (show StableHlo.after hostOps3 (W6 m ρ c) (Proc.devRef .tc main_v51) = Host.users (W6 m ρ c (Proc.devRef .tc main_v48_1)) from by after_results <;> rfl).trans
    (by rw [W6_acc m ρ c])
theorem W7_items : W7 m ρ c (Proc.devRef .tc main_v52) = Host.items (Host.sum3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (show StableHlo.after hostOps3 (W6 m ρ c) (Proc.devRef .tc main_v52) = Host.items (W6 m ρ c (Proc.devRef .tc main_v48_1)) from by after_results <;> rfl).trans
    (by rw [W6_acc m ρ c])

end Cert.KernelIdeal.Fold

end
-- ==== Proof.RefValue.lean ====
/- The reference's two results are the user rows and the item rows of the mean of the four tables.

   The generated run states each result as the composed term of the host operations; that term is, operation for
   operation, `Host.users` / `Host.items` of the running sum after three rounds (the entrywise sums spelled `Host.plus`). -/
import proofs.«135707_j27994596835373_1_alg».proof.Proof.Gen.ReferenceIdeal.Run
import proofs.«135707_j27994596835373_1_alg».proof.Proof.HostUpd

set_option maxRecDepth 16384

noncomputable section

namespace Cert.ReferenceIdeal.RefValue

open Idealize.ShloMosaic Idealize.ShloMosaic.TcCoe Idealize.SL.Sem
open Cert.ReferenceIdeal Cert.ReferenceIdeal.Value

variable (m : (ℓ : Loc nD τ sig) → Buf (Elt Ideal) ℓ) (c : Dev nD)

theorem users_eq : res_main_v90 (F := Ideal) m c = Host.users (Host.sum3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := rfl

theorem items_eq : res_main_v91 (F := Ideal) m c = Host.items (Host.sum3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := rfl

end Cert.ReferenceIdeal.RefValue

end
-- ==== Proof.lean ====
/- The five claims of this certificate, assembled.

   The kernel is three rounds of one step over a [150000, 64] table: a host-side sparse product (gather the rows the
   column indices name, scale, scatter-add into the rows the row indices name), then a launch that updates the table
   5000 rows at a time,   ego ↦ ego + sign(ego) · noise / max(‖noise row‖₂, ε) · δ,   and adds the updated table to a
   running sum; at the end the running sum is divided by four and cut into its user rows and its item rows. The
   reference computes the same three rounds with host operations only.

   At the ideal instance every operation of the two programs is the same function of extended reals — the kernel's lane
   sum and the host's row sum are both the sum over the 64 columns, the kernel's sign (a comparison with zero where the
   entry is not zero, the entry itself where it is) is the host's sign on every extended real, and the two literals ε
   and δ are the same words on both sides — so each launch leaves exactly the reference's update of the arrays it found,
   and the final memories agree entry by entry. No law that needs finiteness is used: the precondition is not opened. -/
import proofs.«135707_j27994596835373_1_alg».proof.Defs
import proofs.«135707_j27994596835373_1_alg».proof.Proof.Gen.Kernel
import proofs.«135707_j27994596835373_1_alg».proof.Proof.Gen.KernelIdeal
import proofs.«135707_j27994596835373_1_alg».proof.Proof.Gen.ReferenceIdeal
import proofs.«135707_j27994596835373_1_alg».proof.Proof.Gen.ReferenceIdeal.Run
import proofs.«135707_j27994596835373_1_alg».proof.Proof.Gen.Pre_finite_inputs
import proofs.«135707_j27994596835373_1_alg».proof.Proof.PatchedKernelFrame
import proofs.«135707_j27994596835373_1_alg».proof.Proof.PatchedKernelIdealFrame
import proofs.«135707_j27994596835373_1_alg».proof.Proof.KernelRun
import proofs.«135707_j27994596835373_1_alg».proof.Proof.Fold
import proofs.«135707_j27994596835373_1_alg».proof.Proof.RefValue
import Idealize.ShloMosaic.Adequacy
import Idealize.ShloMosaic.Init

noncomputable section

namespace Cert.Proof

open Idealize.ShloMosaic Idealize.SL.Sem

theorem frame_k : Cert.frame_Kernel :=
  fun m ρ _ => Cert.Kernel.GenP.frame m ρ

theorem frame_ki : Cert.frame_KernelIdeal :=
  fun m ρ _ => Cert.KernelIdeal.GenP.frame m ρ

/-- The reference has no launch: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's `sign` is built from the sign bit; the idealized kernel reads it as a comparison with zero. One
    statement per round. -/
theorem preserves : Cert.preserves_Kernel_KernelIdeal :=
  ⟨IdealRules.sign_bit.statement _ .f32, IdealRules.sign_bit.statement _ .f32, IdealRules.sign_bit.statement _ .f32⟩

/-- Both programs, from memories that agree on the six arguments, end with the user rows and the item rows of the mean
    of the four tables: the kernel's final memory read back through its seven segments, the reference's composed term. -/
theorem algebraic : Cert.algebraic_KernelIdeal_ReferenceIdeal := by
  intro m ρ m' ρ' _ hagree
  refine ⟨fun c => Cert.Host.users (Cert.Host.sum3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => Cert.Host.items (Cert.Host.sum3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.Fold.W7_users m ρ c), (h c).2.1.trans (Cert.KernelIdeal.Fold.W7_items m ρ c), (h c).2.2⟩)
      (Cert.KernelIdeal.RunAll.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefValue.users_eq, (hagree c).1, (hagree c).2.1, (hagree c).2.2.1, (hagree c).2.2.2.1,
        (hagree c).2.2.2.2.1, (hagree c).2.2.2.2.2]
    · rw [Cert.ReferenceIdeal.RefValue.items_eq, (hagree c).1, (hagree c).2.1, (hagree c).2.2.1, (hagree c).2.2.2.1,
        (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
